-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg5 : FVec F S2x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S2x64x64 .f32) (main_arg5 : FVec F S2x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x64x64 : Shape := ⟨3, ![1, 64, 64]⟩
abbrev S64x64 : Shape := ⟨2, ![64, 64]⟩

abbrev nBuf : Space → Nat
  | .hbm => 120
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S1x64x64, .f32⟩
  | .hbm, ⟨66, _⟩ => ⟨S64x64, .f32⟩
  | .hbm, ⟨67, _⟩ => ⟨S1x64, .f32⟩
  | .hbm, ⟨68, _⟩ => ⟨S64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S1x64x64, .f32⟩
  | .hbm, ⟨93, _⟩ => ⟨S64x64, .f32⟩
  | .hbm, ⟨94, _⟩ => ⟨S1x64, .f32⟩
  | .hbm, ⟨95, _⟩ => ⟨S64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call1_cst : Ref sig .tc := ⟨.hbm, 89, rfl⟩
abbrev main_call1_v0 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_12 : Ref sig .tc := ⟨.hbm, 97, rfl⟩
abbrev main_v74 : Ref sig .tc := ⟨.hbm, 98, rfl⟩
abbrev main_v75 : Ref sig .tc := ⟨.hbm, 99, rfl⟩
abbrev main_c_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call2_cst : Ref sig .tc := ⟨.hbm, 116, rfl⟩
abbrev main_call2_v0 : Ref sig .tc := ⟨.hbm, 117, rfl⟩
abbrev main_v90 : Ref sig .tc := ⟨.hbm, 118, rfl⟩
abbrev main_v91 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x64x64 : Shape := ⟨3, ![1, 64, 64]⟩
abbrev S64x64 : Shape := ⟨2, ![64, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S1x64x64, .f32⟩
  | .hbm, ⟨66, _⟩ => ⟨S64x64, .f32⟩
  | .hbm, ⟨67, _⟩ => ⟨S1x64, .f32⟩
  | .hbm, ⟨68, _⟩ => ⟨S64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S1x64x64, .f32⟩
  | .hbm, ⟨93, _⟩ => ⟨S64x64, .f32⟩
  | .hbm, ⟨94, _⟩ => ⟨S1x64, .f32⟩
  | .hbm, ⟨95, _⟩ => ⟨S64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call1_cst : Ref sig .tc := ⟨.hbm, 89, rfl⟩
abbrev main_call1_v0 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_12 : Ref sig .tc := ⟨.hbm, 97, rfl⟩
abbrev main_v74 : Ref sig .tc := ⟨.hbm, 98, rfl⟩
abbrev main_v75 : Ref sig .tc := ⟨.hbm, 99, rfl⟩
abbrev main_c_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call2_cst : Ref sig .tc := ⟨.hbm, 116, rfl⟩
abbrev main_call2_v0 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NamedRun.lean ====
/-
  The run of the idealized kernel program with its result named.

  The program is thirteen segments: stretches of host operations and three tiled products. The generated frame runs
  them from the launch memory and reads, at the end, every buffer the cores hold against the contents the fold
  through the segments gives it (`W13`), keeping of that reading only the six argument arrays. Here the same launch
  over the same segments keeps one buffer more: the result array, at its folded contents. What those contents are is
  read elsewhere; this module only says that the final memory holds them.
-/
import proofs.«159414_j1254130450890_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result array at the contents the fold through the segments gives it and the six argument arrays as launched. -/
theorem run_named : θ_run defs (onTc (τ := τ) (main (F := F))) ⟨m, fun _ => 0, ρ⟩ (fun r => ∀ c : Dev nD,
      r.2.mem ((c.tc : Thread nD τ).loc main_v91) = W13 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v91 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Hand

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«159414_j1254130450890_1_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.TileProduct.lean ====
/-
  One grid point of each of the three row-tiled products, at the ideal values.

  Each of the three kernels loads a block of 5000 rows of its left operand (128 columns for the first product, 64 for
  the other two) and the whole weight matrix, narrows both to a 16-bit format, multiplies them on the matrix unit into
  a zero accumulator, and stores the 5000 x 64 result. Over the extended reals narrowing a value is the identity, a
  cast of a block to its own shape changes nothing, and adding into zero adds nothing, so what a point stores is the
  plain matrix product of its two loaded blocks: entry (p, j) is the sum over q of x (p, q) * w (q, j).
-/
import proofs.«159414_j1254130450890_1_alg».proof.Proof.Gen.KernelIdeal.Skeleton
import proofs.«159414_j1254130450890_1_alg».proof.Proof.LibMatProd
import proofs.«159414_j1254130450890_1_alg».proof.Proof.LibPlainDot
import Idealize.ShloMosaic.Lib.Pipeline.Value

noncomputable section

namespace Cert.KernelIdeal.Hand

open Idealize.ShloMosaic Idealize.ShloMosaic.ValueIdx Cert.KernelIdeal Cert.KernelIdeal.Gen Cert.LibMatProd

/-- The first product's point: a [5000, 128] block times the [128, 64] weight. -/
theorem tile0_eq (x0 : Vec Ideal S5000x128 .f32) (x1 : Vec Ideal S128x64 .f32) :
    k0_pay1 (F := Ideal) x0 x1 = mm (a := 5000) (k := 128) (n := 64) x0 x1 := by
  funext i
  obtain ⟨p, j, rfl⟩ : ∃ (p : Fin 5000) (j : Fin 64), i = ix2 p j := ⟨i 0, i 1, eq_ix2 i⟩
  unfold k0_pay1
  refine (Cert.LibAffine.coreDot_ix2 dot_S5000x128_S128x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none
    (truncf .bf16 x0 bitsLt_bf16_f32) (truncf .bf16 x1 bitsLt_bf16_f32) p j).trans ?_
  rfl

/-- The second product's point: a [5000, 64] block times a [64, 64] weight. -/
theorem tile1_eq (x0 : Vec Ideal S5000x64 .f32) (x1 : Vec Ideal S64x64 .f32) :
    k1_pay1 (F := Ideal) x0 x1 = mm (a := 5000) (k := 64) (n := 64) x0 x1 := by
  funext i
  obtain ⟨p, j, rfl⟩ : ∃ (p : Fin 5000) (j : Fin 64), i = ix2 p j := ⟨i 0, i 1, eq_ix2 i⟩
  unfold k1_pay1
  simp only [shapeCast_self]
  refine (Cert.LibAffine.coreDot_ix2 dot_S5000x64_S64x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none
    (truncf .bf16 x0 bitsLt_bf16_f32) (truncf .bf16 x1 bitsLt_bf16_f32) p j).trans ?_
  rfl

/-- The third product's point: the same shapes as the second. -/
theorem tile2_eq (x0 : Vec Ideal S5000x64 .f32) (x1 : Vec Ideal S64x64 .f32) :
    k2_pay1 (F := Ideal) x0 x1 = mm (a := 5000) (k := 64) (n := 64) x0 x1 := by
  funext i
  obtain ⟨p, j, rfl⟩ : ∃ (p : Fin 5000) (j : Fin 64), i = ix2 p j := ⟨i 0, i 1, eq_ix2 i⟩
  unfold k2_pay1
  simp only [shapeCast_self]
  refine (Cert.LibAffine.coreDot_ix2 dot_S5000x64_S64x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none
    (truncf .bf16 x0 bitsLt_bf16_f32) (truncf .bf16 x1 bitsLt_bf16_f32) p j).trans ?_
  rfl

end Cert.KernelIdeal.Hand

end
-- ==== Proof.LibProdEntry.lean ====
/-
  General lemma: an entry of a matrix product depends only on one row and one column.

  For L of shape [a, k] and R of shape [k, n], entry i of the product is the sum over q of L (i 0, q) * R (q, i 1). So
  if another pair L' of shape [a', k] and R' of shape [k, n'] has, at an index i', the same row and the same column,
  the two entries are equal. The extents of the two products may differ: this is what lets a block of rows of a
  product be computed from the block of rows alone, and likewise for a block of columns.
  Addition and multiplication on the extended reals are total, so nothing here needs finiteness.
-/
import proofs.«159414_j1254130450890_1_alg».proof.Proof.LibMatProd

noncomputable section

namespace Cert.LibProdEntry

open Idealize.ShloMosaic Idealize.ShloMosaic.ValueIdx Cert.LibMatProd

/-- Two products agree at two indices where the left operands agree along the rows read and the right operands
    along the columns read. -/
theorem mm_entry_congr {a a' k n n' : ℕ} (L : FVec Ideal ⟨2, ![a, k]⟩ .f32) (R : FVec Ideal ⟨2, ![k, n]⟩ .f32)
    (L' : FVec Ideal ⟨2, ![a', k]⟩ .f32) (R' : FVec Ideal ⟨2, ![k, n']⟩ .f32)
    (i : (⟨2, ![a, n]⟩ : Shape).Idx) (i' : (⟨2, ![a', n']⟩ : Shape).Idx)
    (hl : ∀ q : Fin k, L (ix2 (i 0) q) = L' (ix2 (i' 0) q))
    (hr : ∀ q : Fin k, R (ix2 q (i 1)) = R' (ix2 q (i' 1))) :
    mm L R i = mm L' R' i' := by
  show ∑ q : Fin k, L (ix2 (i 0) q) * R (ix2 q (i 1)) = ∑ q : Fin k, L' (ix2 (i' 0) q) * R' (ix2 q (i' 1))
  exact Finset.sum_congr rfl fun q _ => by rw [hl q, hr q]

end Cert.LibProdEntry

end
-- ==== Proof.Region0.lean ====
/-
  The first row-tiled product as one array.

  The grid has 20 points. Point t fetches rows 5000 t ... 5000 t + 4999 of the left operand (all 128 columns) and the
  whole [128, 64] weight, and writes rows 5000 t ... 5000 t + 4999 of the [100000, 64] result. An entry of a product
  reads one row of the left operand and one column of the right one, so what point t writes is block t of the product
  of the whole arrays; the 20 blocks tile the 100000 rows, so after the last point the result array holds that product.
  This holds whatever the arrays contain when the region is entered.
-/
import proofs.«159414_j1254130450890_1_alg».proof.Proof.Gen.KernelIdeal.Frame
import proofs.«159414_j1254130450890_1_alg».proof.Proof.TileProduct
import proofs.«159414_j1254130450890_1_alg».proof.Proof.LibProdEntry

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibMatProd

variable (V : (c : Dev nD) → (b : Ref sig .tc) → Buf (Elt Ideal) ((c : Thread nD τ).loc b))

theorem zero_offsets0 : (![0, 0] : Fin 2 → Nat) = fun _ => 0 := funext fun a => by fin_cases a <;> rfl

/-- The block indices at point t: the left operand's and the result's blocks are at (t, 0), the weight's at (0, 0). -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two arrays the region reads, as it finds them. -/
def prod0 (c : Dev nD) : S100000x64.Idx → Elt Ideal .f32 :=
  mm (a := 100000) (k := 128) (n := 64) (V c main_arg0 : S100000x128.Idx → Elt Ideal .f32) (V c main_arg2 : S128x64.Idx → Elt Ideal .f32)

/-- What point t writes back is block t of that product. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x64) zero_offsets0]
  rw [tile0_eq]
  obtain ⟨e0, e1, e2, e3, e4, e5⟩ := blocks0 t
  funext j
  refine Cert.LibProdEntry.mm_entry_congr (a := 5000) (a' := 100000) (k := 128) (n := 64) (n' := 64)
    (iblk0 V c 0 t) (iblk0 V c 1 t) (V c main_arg0) (V c main_arg2) j (((cfg0.win 2).blk t).view.emb j)
    (fun q => ?_) (fun q => ?_)
  · show V c main_arg0 (((cfg0.win 0).blk t).view.emb (ix2 (j 0) q)) = V c main_arg0 (ix2 ((((cfg0.win 2).blk t).view.emb j) 0) q)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * q.val = q.val
      omega
  · show V c main_arg2 (((cfg0.win 1).blk t).view.emb (ix2 q (j 1))) = V c main_arg2 (ix2 q ((((cfg0.win 2).blk t).view.emb j) 1))
    refine congrArg (V c main_arg2) (funext fun a => Fin.ext ?_)
    match a with
    | ⟨0, _⟩ =>
      show win0_1.index t (0 : Fin 2) * 128 + 1 * q.val = q.val
      omega
    | ⟨1, _⟩ =>
      show win0_1.index t (1 : Fin 2) * 64 + 1 * (j 1).val = win0_2.index t (1 : Fin 2) * 64 + 1 * (j 1).val
      omega

/-- Row r of the result lies in the block of point r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨e0, e1, e2, e3, e4, e5⟩ := blocks0 ⟨(i 0).val / 5000, ht⟩
  refine ⟨⟨(i 0).val / 5000, ht⟩, flush0_2 _, ?_⟩
  show i ∈ ((View.whole main_v30).slice (win0_2.rect ⟨(i 0).val / 5000, ht⟩)).set
  rw [View.set_slice_whole, Rect.mem_set_unit]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e5]
    omega

/-- After the region the result array holds the product of the two arrays the region read. -/
theorem final0 (c : Dev nD) : (dat0 V c).arrAt 2 cfg0.N = prod0 V c :=
  (dat0 V c).arrAt_eq_of_cover 2 (prod0 V c) (fun t _ => flushed0 V c t) (cover0)

end Cert.KernelIdeal.Hand

end
-- ==== Proof.ChainA.lean ====
/-
  The kernel program's buffers up to the end of its first region, named by the reference's stages.

  Both programs run the same host operations around their products. Before the first region those are operations on
  the edge list alone: the sources and the targets of the edges with a self-loop appended per node, and the weight of
  every edge. The first region then leaves the product of the node features with the first weight matrix (Region0),
  which is the host's product of the same two arrays; every other buffer is as it was when the region was entered.
  No gather, scatter or select is opened: a stretch of operations is read as those operations applied to buffers
  already named.
-/
import proofs.«159414_j1254130450890_1_alg».proof.Proof.Gen.KernelIdeal.Frame
import proofs.«159414_j1254130450890_1_alg».proof.Proof.Region0
import proofs.«159414_j1254130450890_1_alg».proof.Proof.RefRead

set_option maxRecDepth 16384
set_option Elab.async false

noncomputable section

namespace Cert.KernelIdeal.Hand

open Idealize.ShloMosaic Idealize.ShloMosaic.TcCoe Idealize.SL.Sem Idealize.ShloMosaic.StableHlo
open Cert.KernelIdeal Cert.KernelIdeal.Gen Cert.LibMatProd
open Cert.ReferenceIdeal.ReadP

variable (m : (ℓ : Loc nD τ sig) → Buf (Elt Ideal) ℓ) (ρ : Dev nD → PrngReg) (c : Dev nD)

/-! ## The six argument arrays, as the launch memory holds them -/

abbrev a0 : S100000x128.Idx → Elt Ideal .f32 := m ((c : Thread nD τ).loc main_arg0)
abbrev a1 : S2x1600000.Idx → Elt Ideal .i32 := m ((c : Thread nD τ).loc main_arg1)
abbrev a2 : S128x64.Idx → Elt Ideal .f32 := m ((c : Thread nD τ).loc main_arg2)
abbrev a3 : S64.Idx → Elt Ideal .f32 := m ((c : Thread nD τ).loc main_arg3)
abbrev a4 : S2x64x64.Idx → Elt Ideal .f32 := m ((c : Thread nD τ).loc main_arg4)
abbrev a5 : S2x64.Idx → Elt Ideal .f32 := m ((c : Thread nD τ).loc main_arg5)

/-! ## Each stretch before the first region, over any contents it is entered from -/

/-- The inverse square root of the degree where the degree is positive, zero elsewhere: a select on the compare. -/
theorem where_out (V : Valuation τ sig (Elt Ideal)) (x12 : (⟨Cert.ReferenceIdeal.S100000, .i1⟩ : BufTy).Contents (Elt Ideal)) (x13 : (⟨Cert.ReferenceIdeal.S100000, .f32⟩ : BufTy).Contents (Elt Ideal))
    (h12 : V (Proc.devRef .tc main_v12) = x12)
    (h13 : V (Proc.devRef .tc main_v13) = x13)
    (hc : V (Proc.devRef .tc main_cst_2) = val_main_cst_2 (F := Ideal)) :
    StableHlo.after hostOps0_1 V (Proc.devRef .tc main_v14) = select x12 x13 (val_main_call0_v0 (F := Ideal)) := by
  after_results_simp
  rw [h12, h13, hc]
  rfl
/-- The weight of every edge: the scaled degrees gathered at its source and at its target, multiplied. -/
theorem norm_out (V : Valuation τ sig (Elt Ideal)) (x1 : (⟨Cert.ReferenceIdeal.S2x1600000, .i32⟩ : BufTy).Contents (Elt Ideal))
    (hs : V (Proc.devRef .tc main_v5) = val_main_v3 (F := Ideal) x1)
    (hd : V (Proc.devRef .tc main_v6) = val_main_v6 (F := Ideal) x1)
    (hv : V (Proc.devRef .tc main_v14) = val_main_v14 (F := Ideal) x1) :
    StableHlo.after hostOps0_2 V (Proc.devRef .tc main_v29) = val_main_v29 (F := Ideal) x1 := by
  after_results_simp
  rw [hs, hd, hv]
  rfl
theorem keep_hostOps0_1_main_v5 (V : Valuation τ sig (Elt Ideal)) :
    StableHlo.after hostOps0_1 V (Proc.devRef .tc main_v5) = V (Proc.devRef .tc main_v5) := by after_results_simp
theorem keep_hostOps0_1_main_v6 (V : Valuation τ sig (Elt Ideal)) :
    StableHlo.after hostOps0_1 V (Proc.devRef .tc main_v6) = V (Proc.devRef .tc main_v6) := by after_results_simp
theorem keep_hostOps0_2_main_v5 (V : Valuation τ sig (Elt Ideal)) :
    StableHlo.after hostOps0_2 V (Proc.devRef .tc main_v5) = V (Proc.devRef .tc main_v5) := by after_results_simp
theorem keep_hostOps0_2_main_v6 (V : Valuation τ sig (Elt Ideal)) :
    StableHlo.after hostOps0_2 V (Proc.devRef .tc main_v6) = V (Proc.devRef .tc main_v6) := by after_results_simp

/-! ## After the first stretch: operations on the edge list alone -/

/-- The edges' sources with the self-loops appended. -/
theorem at1_src : W1 m ρ c (Proc.devRef .tc main_v5) = val_main_v3 (F := Ideal) (a1 m c) := by
  show StableHlo.after hostOps0 (W0 m ρ c) (Proc.devRef .tc main_v5) = _
  after_results_simp <;> rfl
/-- The edges' targets with the self-loops appended. -/
theorem at1_dst : W1 m ρ c (Proc.devRef .tc main_v6) = val_main_v6 (F := Ideal) (a1 m c) := by
  show StableHlo.after hostOps0 (W0 m ρ c) (Proc.devRef .tc main_v6) = _
  after_results_simp <;> rfl
/-- Whether a node's degree is positive. -/
theorem at1_pos : W1 m ρ c (Proc.devRef .tc main_v12) = val_main_v12 (F := Ideal) (a1 m c) := by
  show StableHlo.after hostOps0 (W0 m ρ c) (Proc.devRef .tc main_v12) = _
  after_results_simp <;> rfl
/-- The inverse square root of a node's degree. -/
theorem at1_rsqrt : W1 m ρ c (Proc.devRef .tc main_v13) = val_main_v13 (F := Ideal) (a1 m c) := by
  show StableHlo.after hostOps0 (W0 m ρ c) (Proc.devRef .tc main_v13) = _
  after_results_simp <;> rfl
theorem at1_zero : W1 m ρ c (Proc.devRef .tc main_cst_2) = val_main_cst_2 (F := Ideal) := by
  show StableHlo.after hostOps0 (W0 m ρ c) (Proc.devRef .tc main_cst_2) = _
  after_results_simp <;> rfl

/-! ## After the second and the third stretch -/

theorem at2_dinv : W2 m ρ c (Proc.devRef .tc main_v14) = val_main_v14 (F := Ideal) (a1 m c) :=
  where_out (W1 m ρ c) _ _ (at1_pos m ρ c) (at1_rsqrt m ρ c) (at1_zero m ρ c)
theorem at2_src : W2 m ρ c (Proc.devRef .tc main_v5) = val_main_v3 (F := Ideal) (a1 m c) :=
  (keep_hostOps0_1_main_v5 (W1 m ρ c)).trans (at1_src m ρ c)
theorem at2_dst : W2 m ρ c (Proc.devRef .tc main_v6) = val_main_v6 (F := Ideal) (a1 m c) :=
  (keep_hostOps0_1_main_v6 (W1 m ρ c)).trans (at1_dst m ρ c)
/-- The normalisation weight of every edge. -/
theorem at3_norm : W3 m ρ c (Proc.devRef .tc main_v29) = val_main_v29 (F := Ideal) (a1 m c) :=
  norm_out (W2 m ρ c) (a1 m c) (at2_src m ρ c) (at2_dst m ρ c) (at2_dinv m ρ c)
theorem at3_src : W3 m ρ c (Proc.devRef .tc main_v5) = val_main_v3 (F := Ideal) (a1 m c) :=
  (keep_hostOps0_2_main_v5 (W2 m ρ c)).trans (at2_src m ρ c)
theorem at3_dst : W3 m ρ c (Proc.devRef .tc main_v6) = val_main_v6 (F := Ideal) (a1 m c) :=
  (keep_hostOps0_2_main_v6 (W2 m ρ c)).trans (at2_dst m ρ c)
theorem at3_arg0 : W3 m ρ c (Proc.devRef .tc main_arg0) = a0 m c := by
  show StableHlo.after hostOps0_2 (StableHlo.after hostOps0_1 (StableHlo.after hostOps0 (W0 m ρ c))) (Proc.devRef .tc main_arg0) = _
  after_results_simp <;> rfl
theorem at3_arg2 : W3 m ρ c (Proc.devRef .tc main_arg2) = a2 m c := by
  show StableHlo.after hostOps0_2 (StableHlo.after hostOps0_1 (StableHlo.after hostOps0 (W0 m ρ c))) (Proc.devRef .tc main_arg2) = _
  after_results_simp <;> rfl
theorem at3_arg3 : W3 m ρ c (Proc.devRef .tc main_arg3) = a3 m c := by
  show StableHlo.after hostOps0_2 (StableHlo.after hostOps0_1 (StableHlo.after hostOps0 (W0 m ρ c))) (Proc.devRef .tc main_arg3) = _
  after_results_simp <;> rfl
theorem at3_arg4 : W3 m ρ c (Proc.devRef .tc main_arg4) = a4 m c := by
  show StableHlo.after hostOps0_2 (StableHlo.after hostOps0_1 (StableHlo.after hostOps0 (W0 m ρ c))) (Proc.devRef .tc main_arg4) = _
  after_results_simp <;> rfl
theorem at3_arg5 : W3 m ρ c (Proc.devRef .tc main_arg5) = a5 m c := by
  show StableHlo.after hostOps0_2 (StableHlo.after hostOps0_1 (StableHlo.after hostOps0 (W0 m ρ c))) (Proc.devRef .tc main_arg5) = _
  after_results_simp <;> rfl

/-! ## After the first region -/

/-- The first product: the region's result is the host's product of the same two arrays. -/
theorem at4_prod : W4 m ρ c (Proc.devRef .tc main_v30) = val_main_v30 (F := Ideal) (a0 m c) (a2 m c) := by
  refine (W4_arr m ρ c 2).trans ?_
  rw [final0]
  unfold prod0 val_main_v30
  show mm (W3 m ρ c (Proc.devRef .tc main_arg0)) (W3 m ρ c (Proc.devRef .tc main_arg2)) = _
  rw [at3_arg0, at3_arg2]
  exact (hostDot_eq Cert.ReferenceIdeal.dot_S100000x128_S128x64_S100000x64_1_0_0_1_n_n
    (Cert.LibPlainDot.contr_rank Cert.ReferenceIdeal.dot_S100000x128_S128x64_S100000x64_1_0_0_1_n_n rfl) (Cert.LibPlainDot.contr_size Cert.ReferenceIdeal.dot_S100000x128_S128x64_S100000x64_1_0_0_1_n_n rfl)
    (Cert.LibPlainDot.lhs_row Cert.ReferenceIdeal.dot_S100000x128_S128x64_S100000x64_1_0_0_1_n_n rfl rfl) (Cert.LibPlainDot.lhs_col Cert.ReferenceIdeal.dot_S100000x128_S128x64_S100000x64_1_0_0_1_n_n rfl)
    (Cert.LibPlainDot.rhs_row Cert.ReferenceIdeal.dot_S100000x128_S128x64_S100000x64_1_0_0_1_n_n rfl rfl) (Cert.LibPlainDot.rhs_col Cert.ReferenceIdeal.dot_S100000x128_S128x64_S100000x64_1_0_0_1_n_n rfl rfl rfl rfl) none (a0 m c) (a2 m c)).symm
theorem at4_src : W4 m ρ c (Proc.devRef .tc main_v5) = val_main_v3 (F := Ideal) (a1 m c) :=
  (W4_of_ne m ρ c main_v5 (by decide)).trans (at3_src m ρ c)
theorem at4_dst : W4 m ρ c (Proc.devRef .tc main_v6) = val_main_v6 (F := Ideal) (a1 m c) :=
  (W4_of_ne m ρ c main_v6 (by decide)).trans (at3_dst m ρ c)
theorem at4_norm : W4 m ρ c (Proc.devRef .tc main_v29) = val_main_v29 (F := Ideal) (a1 m c) :=
  (W4_of_ne m ρ c main_v29 (by decide)).trans (at3_norm m ρ c)
theorem at4_arg3 : W4 m ρ c (Proc.devRef .tc main_arg3) = a3 m c :=
  (W4_of_ne m ρ c main_arg3 (by decide)).trans (at3_arg3 m ρ c)
theorem at4_arg4 : W4 m ρ c (Proc.devRef .tc main_arg4) = a4 m c :=
  (W4_of_ne m ρ c main_arg4 (by decide)).trans (at3_arg4 m ρ c)
theorem at4_arg5 : W4 m ρ c (Proc.devRef .tc main_arg5) = a5 m c :=
  (W4_of_ne m ρ c main_arg5 (by decide)).trans (at3_arg5 m ρ c)

end Cert.KernelIdeal.Hand

end
-- ==== Proof.Region1.lean ====
/-
  The second row-tiled product as one array.

  The grid has 20 points. Point t fetches rows 5000 t ... 5000 t + 4999 of the left operand (all 64 columns) and the
  whole [64, 64] weight, and writes rows 5000 t ... 5000 t + 4999 of the [100000, 64] result. An entry of a product
  reads one row of the left operand and one column of the right one, so what point t writes is block t of the product
  of the whole arrays; the 20 blocks tile the 100000 rows, so after the last point the result array holds that product.
  This holds whatever the arrays contain when the region is entered.
-/
import proofs.«159414_j1254130450890_1_alg».proof.Proof.Gen.KernelIdeal.Frame
import proofs.«159414_j1254130450890_1_alg».proof.Proof.TileProduct
import proofs.«159414_j1254130450890_1_alg».proof.Proof.LibProdEntry

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibMatProd

variable (V : (c : Dev nD) → (b : Ref sig .tc) → Buf (Elt Ideal) ((c : Thread nD τ).loc b))

theorem zero_offsets1 : (![0, 0] : Fin 2 → Nat) = fun _ => 0 := funext fun a => by fin_cases a <;> rfl

/-- The block indices at point t: the left operand's and the result's blocks are at (t, 0), the weight's at (0, 0). -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The product of the two arrays the region reads, as it finds them. -/
def prod1 (c : Dev nD) : S100000x64.Idx → Elt Ideal .f32 :=
  mm (a := 100000) (k := 64) (n := 64) (V c main_v46 : S100000x64.Idx → Elt Ideal .f32) (V c main_v48 : S64x64.Idx → Elt Ideal .f32)

/-- What point t writes back is block t of that product. -/
theorem flushed1 (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero zero_offsets1]
  simp only [View.ld_unit_zero (S := S5000x64) zero_offsets1, View.ld_unit_zero (S := S64x64) zero_offsets1]
  rw [tile1_eq]
  obtain ⟨e0, e1, e2, e3, e4, e5⟩ := blocks1 t
  funext j
  refine Cert.LibProdEntry.mm_entry_congr (a := 5000) (a' := 100000) (k := 64) (n := 64) (n' := 64)
    (iblk1 V c 0 t) (iblk1 V c 1 t) (V c main_v46) (V c main_v48) j (((cfg1.win 2).blk t).view.emb j)
    (fun q => ?_) (fun q => ?_)
  · show V c main_v46 (((cfg1.win 0).blk t).view.emb (ix2 (j 0) q)) = V c main_v46 (ix2 ((((cfg1.win 2).blk t).view.emb j) 0) q)
    refine congrArg (V c main_v46) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 64 + 1 * q.val = q.val
      omega
  · show V c main_v48 (((cfg1.win 1).blk t).view.emb (ix2 q (j 1))) = V c main_v48 (ix2 q ((((cfg1.win 2).blk t).view.emb j) 1))
    refine congrArg (V c main_v48) (funext fun a => Fin.ext ?_)
    match a with
    | ⟨0, _⟩ =>
      show win1_1.index t (0 : Fin 2) * 64 + 1 * q.val = q.val
      omega
    | ⟨1, _⟩ =>
      show win1_1.index t (1 : Fin 2) * 64 + 1 * (j 1).val = win1_2.index t (1 : Fin 2) * 64 + 1 * (j 1).val
      omega

/-- Row r of the result lies in the block of point r / 5000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨e0, e1, e2, e3, e4, e5⟩ := blocks1 ⟨(i 0).val / 5000, ht⟩
  refine ⟨⟨(i 0).val / 5000, ht⟩, flush1_2 _, ?_⟩
  show i ∈ ((View.whole main_v51).slice (win1_2.rect ⟨(i 0).val / 5000, ht⟩)).set
  rw [View.set_slice_whole, Rect.mem_set_unit]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]
    omega

/-- After the region the result array holds the product of the two arrays the region read. -/
theorem final1 (c : Dev nD) : (dat1 V c).arrAt 2 cfg1.N = prod1 V c :=
  (dat1 V c).arrAt_eq_of_cover 2 (prod1 V c) (fun t _ => flushed1 V c t) (cover1)

end Cert.KernelIdeal.Hand

end
-- ==== Proof.ChainB.lean ====
/-
  The kernel program's buffers from the first layer to the end of the second region, named by the reference's stages.

  The stretch after the first region gathers the rows of the first product at the edges' sources, applies the edge
  weights, adds them up at the targets and adds the bias: the first layer's output. It also cuts the second layer's
  weight matrix and bias out of the stacked arguments. The second region leaves the product of that output with that
  matrix (Region1), which is the host's product of the same two arrays; every other buffer is kept.
-/
import proofs.«159414_j1254130450890_1_alg».proof.Proof.ChainA
import proofs.«159414_j1254130450890_1_alg».proof.Proof.Region1

set_option maxRecDepth 16384
set_option Elab.async false

noncomputable section

namespace Cert.KernelIdeal.Hand

open Idealize.ShloMosaic Idealize.ShloMosaic.TcCoe Idealize.SL.Sem Idealize.ShloMosaic.StableHlo
open Cert.KernelIdeal Cert.KernelIdeal.Gen Cert.LibMatProd
open Cert.ReferenceIdeal.ReadP

variable (m : (ℓ : Loc nD τ sig) → Buf (Elt Ideal) ℓ) (ρ : Dev nD → PrngReg) (c : Dev nD)

/-! ## The stretch after the first region, over any contents it is entered from -/

/-- The first layer: the rows of the product gathered at the sources, weighted, added up at the targets, plus the bias. -/
theorem layer1_out (V : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (hp : V (Proc.devRef .tc main_v30) = val_main_v30 (F := Ideal) x0 x2)
    (hs : V (Proc.devRef .tc main_v5) = val_main_v3 (F := Ideal) x1)
    (hd : V (Proc.devRef .tc main_v6) = val_main_v6 (F := Ideal) x1)
    (hn : V (Proc.devRef .tc main_v29) = val_main_v29 (F := Ideal) x1)
    (hb : V (Proc.devRef .tc main_arg3) = x3) :
    StableHlo.after hostOps1 V (Proc.devRef .tc main_v46) = val_main_v46 (F := Ideal) x0 x1 x2 x3 := by
  after_results_simp
  rw [hp, hs, hd, hn, hb]
  rfl
/-- The second layer's weight matrix, cut out of the stacked weights. -/
theorem weight1_out (V : Valuation τ sig (Elt Ideal)) (x4 : (⟨Cert.ReferenceIdeal.S2x64x64, .f32⟩ : BufTy).Contents (Elt Ideal))
    (h4 : V (Proc.devRef .tc main_arg4) = x4) :
    StableHlo.after hostOps1 V (Proc.devRef .tc main_v48) = val_main_v48 (F := Ideal) x4 := by
  after_results_simp
  rw [h4]
  rfl
/-- The second layer's bias, cut out of the stacked biases. -/
theorem bias1_out (V : Valuation τ sig (Elt Ideal)) (x5 : (⟨Cert.ReferenceIdeal.S2x64, .f32⟩ : BufTy).Contents (Elt Ideal))
    (h5 : V (Proc.devRef .tc main_arg5) = x5) :
    StableHlo.after hostOps1 V (Proc.devRef .tc main_v50) = val_main_v50 (F := Ideal) x5 := by
  after_results_simp
  rw [h5]
  rfl
theorem keep_hostOps1_main_v5 (V : Valuation τ sig (Elt Ideal)) :
    StableHlo.after hostOps1 V (Proc.devRef .tc main_v5) = V (Proc.devRef .tc main_v5) := by after_results_simp
theorem keep_hostOps1_main_v6 (V : Valuation τ sig (Elt Ideal)) :
    StableHlo.after hostOps1 V (Proc.devRef .tc main_v6) = V (Proc.devRef .tc main_v6) := by after_results_simp
theorem keep_hostOps1_main_v29 (V : Valuation τ sig (Elt Ideal)) :
    StableHlo.after hostOps1 V (Proc.devRef .tc main_v29) = V (Proc.devRef .tc main_v29) := by after_results_simp
theorem keep_hostOps1_main_arg4 (V : Valuation τ sig (Elt Ideal)) :
    StableHlo.after hostOps1 V (Proc.devRef .tc main_arg4) = V (Proc.devRef .tc main_arg4) := by after_results_simp
theorem keep_hostOps1_main_arg5 (V : Valuation τ sig (Elt Ideal)) :
    StableHlo.after hostOps1 V (Proc.devRef .tc main_arg5) = V (Proc.devRef .tc main_arg5) := by after_results_simp

/-! ## The first layer, and the second region -/

theorem at5_first : W5 m ρ c (Proc.devRef .tc main_v46) = val_main_v46 (F := Ideal) (a0 m c) (a1 m c) (a2 m c) (a3 m c) :=
  layer1_out (W4 m ρ c) (a0 m c) (a1 m c) (a2 m c) (a3 m c) (at4_prod m ρ c) (at4_src m ρ c) (at4_dst m ρ c) (at4_norm m ρ c) (at4_arg3 m ρ c)
theorem at5_weight : W5 m ρ c (Proc.devRef .tc main_v48) = val_main_v48 (F := Ideal) (a4 m c) :=
  weight1_out (W4 m ρ c) (a4 m c) (at4_arg4 m ρ c)
theorem at5_bias : W5 m ρ c (Proc.devRef .tc main_v50) = val_main_v50 (F := Ideal) (a5 m c) :=
  bias1_out (W4 m ρ c) (a5 m c) (at4_arg5 m ρ c)
theorem at5_src : W5 m ρ c (Proc.devRef .tc main_v5) = val_main_v3 (F := Ideal) (a1 m c) :=
  (keep_hostOps1_main_v5 (W4 m ρ c)).trans (at4_src m ρ c)
theorem at5_dst : W5 m ρ c (Proc.devRef .tc main_v6) = val_main_v6 (F := Ideal) (a1 m c) :=
  (keep_hostOps1_main_v6 (W4 m ρ c)).trans (at4_dst m ρ c)
theorem at5_norm : W5 m ρ c (Proc.devRef .tc main_v29) = val_main_v29 (F := Ideal) (a1 m c) :=
  (keep_hostOps1_main_v29 (W4 m ρ c)).trans (at4_norm m ρ c)
theorem at5_arg4 : W5 m ρ c (Proc.devRef .tc main_arg4) = a4 m c :=
  (keep_hostOps1_main_arg4 (W4 m ρ c)).trans (at4_arg4 m ρ c)
theorem at5_arg5 : W5 m ρ c (Proc.devRef .tc main_arg5) = a5 m c :=
  (keep_hostOps1_main_arg5 (W4 m ρ c)).trans (at4_arg5 m ρ c)

/-- The second product: the region's result is the host's product of the same two arrays. -/
theorem at6_prod : W6 m ρ c (Proc.devRef .tc main_v51) = val_main_v51 (F := Ideal) (a0 m c) (a1 m c) (a2 m c) (a3 m c) (a4 m c) := by
  refine (W6_arr m ρ c 2).trans ?_
  rw [final1]
  unfold prod1 val_main_v51
  show mm (W5 m ρ c (Proc.devRef .tc main_v46)) (W5 m ρ c (Proc.devRef .tc main_v48)) = _
  rw [at5_first, at5_weight]
  exact (hostDot_eq Cert.ReferenceIdeal.dot_S100000x64_S64x64_S100000x64_1_0_0_1_n_n
    (Cert.LibPlainDot.contr_rank Cert.ReferenceIdeal.dot_S100000x64_S64x64_S100000x64_1_0_0_1_n_n rfl) (Cert.LibPlainDot.contr_size Cert.ReferenceIdeal.dot_S100000x64_S64x64_S100000x64_1_0_0_1_n_n rfl)
    (Cert.LibPlainDot.lhs_row Cert.ReferenceIdeal.dot_S100000x64_S64x64_S100000x64_1_0_0_1_n_n rfl rfl) (Cert.LibPlainDot.lhs_col Cert.ReferenceIdeal.dot_S100000x64_S64x64_S100000x64_1_0_0_1_n_n rfl)
    (Cert.LibPlainDot.rhs_row Cert.ReferenceIdeal.dot_S100000x64_S64x64_S100000x64_1_0_0_1_n_n rfl rfl) (Cert.LibPlainDot.rhs_col Cert.ReferenceIdeal.dot_S100000x64_S64x64_S100000x64_1_0_0_1_n_n rfl rfl rfl rfl) none _ _).symm
/-- The region reads the first layer's output and leaves it as it was. -/
theorem at6_first : W6 m ρ c (Proc.devRef .tc main_v46) = val_main_v46 (F := Ideal) (a0 m c) (a1 m c) (a2 m c) (a3 m c) :=
  (W6_arr m ρ c 0).trans (((dat1 (V5 m ρ) c).arrAt_in 0 rfl _).trans ((A_eq1 (V5 m ρ) c 0).trans (at5_first m ρ c)))
theorem at6_bias : W6 m ρ c (Proc.devRef .tc main_v50) = val_main_v50 (F := Ideal) (a5 m c) :=
  (W6_of_ne m ρ c main_v50 (by decide)).trans (at5_bias m ρ c)
theorem at6_src : W6 m ρ c (Proc.devRef .tc main_v5) = val_main_v3 (F := Ideal) (a1 m c) :=
  (W6_of_ne m ρ c main_v5 (by decide)).trans (at5_src m ρ c)
theorem at6_dst : W6 m ρ c (Proc.devRef .tc main_v6) = val_main_v6 (F := Ideal) (a1 m c) :=
  (W6_of_ne m ρ c main_v6 (by decide)).trans (at5_dst m ρ c)
theorem at6_norm : W6 m ρ c (Proc.devRef .tc main_v29) = val_main_v29 (F := Ideal) (a1 m c) :=
  (W6_of_ne m ρ c main_v29 (by decide)).trans (at5_norm m ρ c)
theorem at6_arg4 : W6 m ρ c (Proc.devRef .tc main_arg4) = a4 m c :=
  (W6_of_ne m ρ c main_arg4 (by decide)).trans (at5_arg4 m ρ c)
theorem at6_arg5 : W6 m ρ c (Proc.devRef .tc main_arg5) = a5 m c :=
  (W6_of_ne m ρ c main_arg5 (by decide)).trans (at5_arg5 m ρ c)

end Cert.KernelIdeal.Hand

end
-- ==== Proof.Region2.lean ====
/-
  The third row-tiled product as one array.

  The grid has 20 points. Point t fetches rows 5000 t ... 5000 t + 4999 of the left operand (all 64 columns) and the
  whole [64, 64] weight, and writes rows 5000 t ... 5000 t + 4999 of the [100000, 64] result. An entry of a product
  reads one row of the left operand and one column of the right one, so what point t writes is block t of the product
  of the whole arrays; the 20 blocks tile the 100000 rows, so after the last point the result array holds that product.
  This holds whatever the arrays contain when the region is entered.
-/
import proofs.«159414_j1254130450890_1_alg».proof.Proof.Gen.KernelIdeal.Frame
import proofs.«159414_j1254130450890_1_alg».proof.Proof.TileProduct
import proofs.«159414_j1254130450890_1_alg».proof.Proof.LibProdEntry

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibMatProd

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices at point t: the left operand's and the result's blocks are at (t, 0), the weight's at (0, 0). -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the two arrays the region reads, as it finds them. -/
def prod2 (c : Dev nD) : S100000x64.Idx → Elt Ideal .f32 :=
  mm (a := 100000) (k := 64) (n := 64) (V c main_v68 : S100000x64.Idx → Elt Ideal .f32) (V c main_v70 : S64x64.Idx → Elt Ideal .f32)

/-- What point t writes back is block t of that product. -/
theorem flushed2 (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero zero_offsets2]
  simp only [View.ld_unit_zero (S := S5000x64) zero_offsets2, View.ld_unit_zero (S := S64x64) zero_offsets2]
  rw [tile2_eq]
  obtain ⟨e0, e1, e2, e3, e4, e5⟩ := blocks2 t
  funext j
  refine Cert.LibProdEntry.mm_entry_congr (a := 5000) (a' := 100000) (k := 64) (n := 64) (n' := 64)
    (iblk2 V c 0 t) (iblk2 V c 1 t) (V c main_v68) (V c main_v70) j (((cfg2.win 2).blk t).view.emb j)
    (fun q => ?_) (fun q => ?_)
  · show V c main_v68 (((cfg2.win 0).blk t).view.emb (ix2 (j 0) q)) = V c main_v68 (ix2 ((((cfg2.win 2).blk t).view.emb j) 0) q)
    refine congrArg (V c main_v68) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * q.val = q.val
      omega
  · show V c main_v70 (((cfg2.win 1).blk t).view.emb (ix2 q (j 1))) = V c main_v70 (ix2 q ((((cfg2.win 2).blk t).view.emb j) 1))
    refine congrArg (V c main_v70) (funext fun a => Fin.ext ?_)
    match a with
    | ⟨0, _⟩ =>
      show win2_1.index t (0 : Fin 2) * 64 + 1 * q.val = q.val
      omega
    | ⟨1, _⟩ =>
      show win2_1.index t (1 : Fin 2) * 64 + 1 * (j 1).val = win2_2.index t (1 : Fin 2) * 64 + 1 * (j 1).val
      omega

/-- Row r of the result lies in the block of point r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨e0, e1, e2, e3, e4, e5⟩ := blocks2 ⟨(i 0).val / 5000, ht⟩
  refine ⟨⟨(i 0).val / 5000, ht⟩, flush2_2 _, ?_⟩
  show i ∈ ((View.whole main_v73).slice (win2_2.rect ⟨(i 0).val / 5000, ht⟩)).set
  rw [View.set_slice_whole, Rect.mem_set_unit]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    rw [e5]
    omega

/-- After the region the result array holds the product of the two arrays the region read. -/
theorem final2 (c : Dev nD) : (dat2 V c).arrAt 2 cfg2.N = prod2 V c :=
  (dat2 V c).arrAt_eq_of_cover 2 (prod2 V c) (fun t _ => flushed2 V c t) (cover2)

end Cert.KernelIdeal.Hand

end
-- ==== Proof.ChainC.lean ====
/-
  The kernel program's buffers from the second layer to the end, named by the reference's stages.

  The second layer's output after the rectifier, the third weight matrix and bias, the third region's product
  (Region2) and the third layer's output after the rectifier; the last operation adds the first layer's output to it.
  So at the end the result array holds the reference's last stage of the six arguments.
-/
import proofs.«159414_j1254130450890_1_alg».proof.Proof.ChainB
import proofs.«159414_j1254130450890_1_alg».proof.Proof.Region2

set_option maxRecDepth 16384
set_option Elab.async false

noncomputable section

namespace Cert.KernelIdeal.Hand

open Idealize.ShloMosaic Idealize.ShloMosaic.TcCoe Idealize.SL.Sem Idealize.ShloMosaic.StableHlo
open Cert.KernelIdeal Cert.KernelIdeal.Gen Cert.LibMatProd
open Cert.ReferenceIdeal.ReadP

variable (m : (ℓ : Loc nD τ sig) → Buf (Elt Ideal) ℓ) (ρ : Dev nD → PrngReg) (c : Dev nD)

/-! ## The stretches between the second and the third region, over any contents they are entered from -/

/-- The second layer before the rectifier. -/
theorem layer2_out (V : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S2x64x64, .f32⟩ : BufTy).Contents (Elt Ideal)) (x5 : (⟨Cert.ReferenceIdeal.S2x64, .f32⟩ : BufTy).Contents (Elt Ideal))
    (hp : V (Proc.devRef .tc main_v51) = val_main_v51 (F := Ideal) x0 x1 x2 x3 x4)
    (hs : V (Proc.devRef .tc main_v5) = val_main_v3 (F := Ideal) x1)
    (hd : V (Proc.devRef .tc main_v6) = val_main_v6 (F := Ideal) x1)
    (hn : V (Proc.devRef .tc main_v29) = val_main_v29 (F := Ideal) x1)
    (hb : V (Proc.devRef .tc main_v50) = val_main_v50 (F := Ideal) x5) :
    StableHlo.after hostOps2 V (Proc.devRef .tc main_v67) = val_main_v67 (F := Ideal) x0 x1 x2 x3 x4 x5 := by
  after_results_simp
  rw [hp, hs, hd, hn, hb]
  rfl
/-- The rectifier: the maximum with zero. -/
theorem relu1_out (V : Valuation τ sig (Elt Ideal)) (x : (⟨Cert.ReferenceIdeal.S100000x64, .f32⟩ : BufTy).Contents (Elt Ideal))
    (h : V (Proc.devRef .tc main_v67) = x) :
    StableHlo.after hostOps2_1 V (Proc.devRef .tc main_v68) = maximumf (F := Ideal) (s := Cert.ReferenceIdeal.S100000x64) (φ := .f32) x (val_main_call1_v0 (F := Ideal)) := by
  after_results_simp
  rw [h]
  rfl
/-- The third layer's weight matrix. -/
theorem weight2_out (V : Valuation τ sig (Elt Ideal)) (x4 : (⟨Cert.ReferenceIdeal.S2x64x64, .f32⟩ : BufTy).Contents (Elt Ideal))
    (h4 : V (Proc.devRef .tc main_arg4) = x4) :
    StableHlo.after hostOps2_2 V (Proc.devRef .tc main_v70) = val_main_v70 (F := Ideal) x4 := by
  after_results_simp
  rw [h4]
  rfl
/-- The third layer's bias. -/
theorem bias2_out (V : Valuation τ sig (Elt Ideal)) (x5 : (⟨Cert.ReferenceIdeal.S2x64, .f32⟩ : BufTy).Contents (Elt Ideal))
    (h5 : V (Proc.devRef .tc main_arg5) = x5) :
    StableHlo.after hostOps2_2 V (Proc.devRef .tc main_v72) = val_main_v72 (F := Ideal) x5 := by
  after_results_simp
  rw [h5]
  rfl
theorem keep_hostOps2_main_v5 (V : Valuation τ sig (Elt Ideal)) :
    StableHlo.after hostOps2 V (Proc.devRef .tc main_v5) = V (Proc.devRef .tc main_v5) := by after_results_simp
theorem keep_hostOps2_main_v6 (V : Valuation τ sig (Elt Ideal)) :
    StableHlo.after hostOps2 V (Proc.devRef .tc main_v6) = V (Proc.devRef .tc main_v6) := by after_results_simp
theorem keep_hostOps2_main_v29 (V : Valuation τ sig (Elt Ideal)) :
    StableHlo.after hostOps2 V (Proc.devRef .tc main_v29) = V (Proc.devRef .tc main_v29) := by after_results_simp
theorem keep_hostOps2_main_v46 (V : Valuation τ sig (Elt Ideal)) :
    StableHlo.after hostOps2 V (Proc.devRef .tc main_v46) = V (Proc.devRef .tc main_v46) := by after_results_simp
theorem keep_hostOps2_main_arg4 (V : Valuation τ sig (Elt Ideal)) :
    StableHlo.after hostOps2 V (Proc.devRef .tc main_arg4) = V (Proc.devRef .tc main_arg4) := by after_results_simp
theorem keep_hostOps2_main_arg5 (V : Valuation τ sig (Elt Ideal)) :
    StableHlo.after hostOps2 V (Proc.devRef .tc main_arg5) = V (Proc.devRef .tc main_arg5) := by after_results_simp
theorem keep_hostOps2_1_main_v5 (V : Valuation τ sig (Elt Ideal)) :
    StableHlo.after hostOps2_1 V (Proc.devRef .tc main_v5) = V (Proc.devRef .tc main_v5) := by after_results_simp
theorem keep_hostOps2_1_main_v6 (V : Valuation τ sig (Elt Ideal)) :
    StableHlo.after hostOps2_1 V (Proc.devRef .tc main_v6) = V (Proc.devRef .tc main_v6) := by after_results_simp
theorem keep_hostOps2_1_main_v29 (V : Valuation τ sig (Elt Ideal)) :
    StableHlo.after hostOps2_1 V (Proc.devRef .tc main_v29) = V (Proc.devRef .tc main_v29) := by after_results_simp
theorem keep_hostOps2_1_main_v46 (V : Valuation τ sig (Elt Ideal)) :
    StableHlo.after hostOps2_1 V (Proc.devRef .tc main_v46) = V (Proc.devRef .tc main_v46) := by after_results_simp
theorem keep_hostOps2_1_main_arg4 (V : Valuation τ sig (Elt Ideal)) :
    StableHlo.after hostOps2_1 V (Proc.devRef .tc main_arg4) = V (Proc.devRef .tc main_arg4) := by after_results_simp
theorem keep_hostOps2_1_main_arg5 (V : Valuation τ sig (Elt Ideal)) :
    StableHlo.after hostOps2_1 V (Proc.devRef .tc main_arg5) = V (Proc.devRef .tc main_arg5) := by after_results_simp
theorem keep_hostOps2_2_main_v68 (V : Valuation τ sig (Elt Ideal)) :
    StableHlo.after hostOps2_2 V (Proc.devRef .tc main_v68) = V (Proc.devRef .tc main_v68) := by after_results_simp
theorem keep_hostOps2_2_main_v5 (V : Valuation τ sig (Elt Ideal)) :
    StableHlo.after hostOps2_2 V (Proc.devRef .tc main_v5) = V (Proc.devRef .tc main_v5) := by after_results_simp
theorem keep_hostOps2_2_main_v6 (V : Valuation τ sig (Elt Ideal)) :
    StableHlo.after hostOps2_2 V (Proc.devRef .tc main_v6) = V (Proc.devRef .tc main_v6) := by after_results_simp
theorem keep_hostOps2_2_main_v29 (V : Valuation τ sig (Elt Ideal)) :
    StableHlo.after hostOps2_2 V (Proc.devRef .tc main_v29) = V (Proc.devRef .tc main_v29) := by after_results_simp
theorem keep_hostOps2_2_main_v46 (V : Valuation τ sig (Elt Ideal)) :
    StableHlo.after hostOps2_2 V (Proc.devRef .tc main_v46) = V (Proc.devRef .tc main_v46) := by after_results_simp

/-! ## The second layer, and the third region -/

theorem at7_pre : W7 m ρ c (Proc.devRef .tc main_v67) = val_main_v67 (F := Ideal) (a0 m c) (a1 m c) (a2 m c) (a3 m c) (a4 m c) (a5 m c) :=
  layer2_out (W6 m ρ c) (a0 m c) (a1 m c) (a2 m c) (a3 m c) (a4 m c) (a5 m c) (at6_prod m ρ c) (at6_src m ρ c) (at6_dst m ρ c) (at6_norm m ρ c) (at6_bias m ρ c)
theorem at7_src : W7 m ρ c (Proc.devRef .tc main_v5) = val_main_v3 (F := Ideal) (a1 m c) :=
  (keep_hostOps2_main_v5 (W6 m ρ c)).trans (at6_src m ρ c)
theorem at7_dst : W7 m ρ c (Proc.devRef .tc main_v6) = val_main_v6 (F := Ideal) (a1 m c) :=
  (keep_hostOps2_main_v6 (W6 m ρ c)).trans (at6_dst m ρ c)
theorem at7_norm : W7 m ρ c (Proc.devRef .tc main_v29) = val_main_v29 (F := Ideal) (a1 m c) :=
  (keep_hostOps2_main_v29 (W6 m ρ c)).trans (at6_norm m ρ c)
theorem at7_first : W7 m ρ c (Proc.devRef .tc main_v46) = val_main_v46 (F := Ideal) (a0 m c) (a1 m c) (a2 m c) (a3 m c) :=
  (keep_hostOps2_main_v46 (W6 m ρ c)).trans (at6_first m ρ c)
theorem at7_arg4 : W7 m ρ c (Proc.devRef .tc main_arg4) = a4 m c :=
  (keep_hostOps2_main_arg4 (W6 m ρ c)).trans (at6_arg4 m ρ c)
theorem at7_arg5 : W7 m ρ c (Proc.devRef .tc main_arg5) = a5 m c :=
  (keep_hostOps2_main_arg5 (W6 m ρ c)).trans (at6_arg5 m ρ c)
/-- The second layer's output after the rectifier. -/
theorem at8_second : W8 m ρ c (Proc.devRef .tc main_v68) = val_main_v68 (F := Ideal) (a0 m c) (a1 m c) (a2 m c) (a3 m c) (a4 m c) (a5 m c) :=
  relu1_out (W7 m ρ c) _ (at7_pre m ρ c)
theorem at8_src : W8 m ρ c (Proc.devRef .tc main_v5) = val_main_v3 (F := Ideal) (a1 m c) :=
  (keep_hostOps2_1_main_v5 (W7 m ρ c)).trans (at7_src m ρ c)
theorem at8_dst : W8 m ρ c (Proc.devRef .tc main_v6) = val_main_v6 (F := Ideal) (a1 m c) :=
  (keep_hostOps2_1_main_v6 (W7 m ρ c)).trans (at7_dst m ρ c)
theorem at8_norm : W8 m ρ c (Proc.devRef .tc main_v29) = val_main_v29 (F := Ideal) (a1 m c) :=
  (keep_hostOps2_1_main_v29 (W7 m ρ c)).trans (at7_norm m ρ c)
theorem at8_first : W8 m ρ c (Proc.devRef .tc main_v46) = val_main_v46 (F := Ideal) (a0 m c) (a1 m c) (a2 m c) (a3 m c) :=
  (keep_hostOps2_1_main_v46 (W7 m ρ c)).trans (at7_first m ρ c)
theorem at8_arg4 : W8 m ρ c (Proc.devRef .tc main_arg4) = a4 m c :=
  (keep_hostOps2_1_main_arg4 (W7 m ρ c)).trans (at7_arg4 m ρ c)
theorem at8_arg5 : W8 m ρ c (Proc.devRef .tc main_arg5) = a5 m c :=
  (keep_hostOps2_1_main_arg5 (W7 m ρ c)).trans (at7_arg5 m ρ c)
theorem at9_weight : W9 m ρ c (Proc.devRef .tc main_v70) = val_main_v70 (F := Ideal) (a4 m c) :=
  weight2_out (W8 m ρ c) (a4 m c) (at8_arg4 m ρ c)
theorem at9_bias : W9 m ρ c (Proc.devRef .tc main_v72) = val_main_v72 (F := Ideal) (a5 m c) :=
  bias2_out (W8 m ρ c) (a5 m c) (at8_arg5 m ρ c)
theorem at9_second : W9 m ρ c (Proc.devRef .tc main_v68) = val_main_v68 (F := Ideal) (a0 m c) (a1 m c) (a2 m c) (a3 m c) (a4 m c) (a5 m c) :=
  (keep_hostOps2_2_main_v68 (W8 m ρ c)).trans (at8_second m ρ c)
theorem at9_src : W9 m ρ c (Proc.devRef .tc main_v5) = val_main_v3 (F := Ideal) (a1 m c) :=
  (keep_hostOps2_2_main_v5 (W8 m ρ c)).trans (at8_src m ρ c)
theorem at9_dst : W9 m ρ c (Proc.devRef .tc main_v6) = val_main_v6 (F := Ideal) (a1 m c) :=
  (keep_hostOps2_2_main_v6 (W8 m ρ c)).trans (at8_dst m ρ c)
theorem at9_norm : W9 m ρ c (Proc.devRef .tc main_v29) = val_main_v29 (F := Ideal) (a1 m c) :=
  (keep_hostOps2_2_main_v29 (W8 m ρ c)).trans (at8_norm m ρ c)
theorem at9_first : W9 m ρ c (Proc.devRef .tc main_v46) = val_main_v46 (F := Ideal) (a0 m c) (a1 m c) (a2 m c) (a3 m c) :=
  (keep_hostOps2_2_main_v46 (W8 m ρ c)).trans (at8_first m ρ c)

/-- The third product: the region's result is the host's product of the same two arrays. -/
theorem at10_prod : W10 m ρ c (Proc.devRef .tc main_v73) = val_main_v73 (F := Ideal) (a0 m c) (a1 m c) (a2 m c) (a3 m c) (a4 m c) (a5 m c) := by
  refine (W10_arr m ρ c 2).trans ?_
  rw [final2]
  unfold prod2 val_main_v73
  show mm (W9 m ρ c (Proc.devRef .tc main_v68)) (W9 m ρ c (Proc.devRef .tc main_v70)) = _
  rw [at9_second, at9_weight]
  exact (hostDot_eq Cert.ReferenceIdeal.dot_S100000x64_S64x64_S100000x64_1_0_0_1_n_n
    (Cert.LibPlainDot.contr_rank Cert.ReferenceIdeal.dot_S100000x64_S64x64_S100000x64_1_0_0_1_n_n rfl) (Cert.LibPlainDot.contr_size Cert.ReferenceIdeal.dot_S100000x64_S64x64_S100000x64_1_0_0_1_n_n rfl)
    (Cert.LibPlainDot.lhs_row Cert.ReferenceIdeal.dot_S100000x64_S64x64_S100000x64_1_0_0_1_n_n rfl rfl) (Cert.LibPlainDot.lhs_col Cert.ReferenceIdeal.dot_S100000x64_S64x64_S100000x64_1_0_0_1_n_n rfl)
    (Cert.LibPlainDot.rhs_row Cert.ReferenceIdeal.dot_S100000x64_S64x64_S100000x64_1_0_0_1_n_n rfl rfl) (Cert.LibPlainDot.rhs_col Cert.ReferenceIdeal.dot_S100000x64_S64x64_S100000x64_1_0_0_1_n_n rfl rfl rfl rfl) none _ _).symm
theorem at10_bias : W10 m ρ c (Proc.devRef .tc main_v72) = val_main_v72 (F := Ideal) (a5 m c) :=
  (W10_of_ne m ρ c main_v72 (by decide)).trans (at9_bias m ρ c)
theorem at10_first : W10 m ρ c (Proc.devRef .tc main_v46) = val_main_v46 (F := Ideal) (a0 m c) (a1 m c) (a2 m c) (a3 m c) :=
  (W10_of_ne m ρ c main_v46 (by decide)).trans (at9_first m ρ c)
theorem at10_src : W10 m ρ c (Proc.devRef .tc main_v5) = val_main_v3 (F := Ideal) (a1 m c) :=
  (W10_of_ne m ρ c main_v5 (by decide)).trans (at9_src m ρ c)
theorem at10_dst : W10 m ρ c (Proc.devRef .tc main_v6) = val_main_v6 (F := Ideal) (a1 m c) :=
  (W10_of_ne m ρ c main_v6 (by decide)).trans (at9_dst m ρ c)
theorem at10_norm : W10 m ρ c (Proc.devRef .tc main_v29) = val_main_v29 (F := Ideal) (a1 m c) :=
  (W10_of_ne m ρ c main_v29 (by decide)).trans (at9_norm m ρ c)

/-! ## The stretches after the third region, over any contents they are entered from -/

/-- The third layer before the rectifier. -/
theorem layer3_out (V : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S2x64x64, .f32⟩ : BufTy).Contents (Elt Ideal)) (x5 : (⟨Cert.ReferenceIdeal.S2x64, .f32⟩ : BufTy).Contents (Elt Ideal))
    (hp : V (Proc.devRef .tc main_v73) = val_main_v73 (F := Ideal) x0 x1 x2 x3 x4 x5)
    (hs : V (Proc.devRef .tc main_v5) = val_main_v3 (F := Ideal) x1)
    (hd : V (Proc.devRef .tc main_v6) = val_main_v6 (F := Ideal) x1)
    (hn : V (Proc.devRef .tc main_v29) = val_main_v29 (F := Ideal) x1)
    (hb : V (Proc.devRef .tc main_v72) = val_main_v72 (F := Ideal) x5) :
    StableHlo.after hostOps3 V (Proc.devRef .tc main_v89) = val_main_v89 (F := Ideal) x0 x1 x2 x3 x4 x5 := by
  after_results_simp
  rw [hp, hs, hd, hn, hb]
  rfl
/-- The rectifier: the maximum with zero. -/
theorem relu2_out (V : Valuation τ sig (Elt Ideal)) (x : (⟨Cert.ReferenceIdeal.S100000x64, .f32⟩ : BufTy).Contents (Elt Ideal))
    (h : V (Proc.devRef .tc main_v89) = x) :
    StableHlo.after hostOps3_1 V (Proc.devRef .tc main_v90) = maximumf (F := Ideal) (s := Cert.ReferenceIdeal.S100000x64) (φ := .f32) x (val_main_call2_v0 (F := Ideal)) := by
  after_results_simp
  rw [h]
  rfl
/-- The last operation: the first layer's output added to the third's. -/
theorem sum_out (V : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S2x64x64, .f32⟩ : BufTy).Contents (Elt Ideal)) (x5 : (⟨Cert.ReferenceIdeal.S2x64, .f32⟩ : BufTy).Contents (Elt Ideal))
    (h90 : V (Proc.devRef .tc main_v90) = val_main_v90 (F := Ideal) x0 x1 x2 x3 x4 x5)
    (h46 : V (Proc.devRef .tc main_v46) = val_main_v46 (F := Ideal) x0 x1 x2 x3) :
    StableHlo.after hostOps3_2 V (Proc.devRef .tc main_v91) = val_main_v91 (F := Ideal) x0 x1 x2 x3 x4 x5 := by
  after_results_simp
  rw [h90, h46]
  rfl
theorem keep_hostOps3_main_v46 (V : Valuation τ sig (Elt Ideal)) :
    StableHlo.after hostOps3 V (Proc.devRef .tc main_v46) = V (Proc.devRef .tc main_v46) := by after_results_simp
theorem keep_hostOps3_1_main_v46 (V : Valuation τ sig (Elt Ideal)) :
    StableHlo.after hostOps3_1 V (Proc.devRef .tc main_v46) = V (Proc.devRef .tc main_v46) := by after_results_simp

/-! ## The third layer and the residual sum -/

theorem at11_pre : W11 m ρ c (Proc.devRef .tc main_v89) = val_main_v89 (F := Ideal) (a0 m c) (a1 m c) (a2 m c) (a3 m c) (a4 m c) (a5 m c) :=
  layer3_out (W10 m ρ c) (a0 m c) (a1 m c) (a2 m c) (a3 m c) (a4 m c) (a5 m c) (at10_prod m ρ c) (at10_src m ρ c) (at10_dst m ρ c) (at10_norm m ρ c) (at10_bias m ρ c)
theorem at11_first : W11 m ρ c (Proc.devRef .tc main_v46) = val_main_v46 (F := Ideal) (a0 m c) (a1 m c) (a2 m c) (a3 m c) :=
  (keep_hostOps3_main_v46 (W10 m ρ c)).trans (at10_first m ρ c)
theorem at12_third : W12 m ρ c (Proc.devRef .tc main_v90) = val_main_v90 (F := Ideal) (a0 m c) (a1 m c) (a2 m c) (a3 m c) (a4 m c) (a5 m c) :=
  relu2_out (W11 m ρ c) _ (at11_pre m ρ c)
theorem at12_first : W12 m ρ c (Proc.devRef .tc main_v46) = val_main_v46 (F := Ideal) (a0 m c) (a1 m c) (a2 m c) (a3 m c) :=
  (keep_hostOps3_1_main_v46 (W11 m ρ c)).trans (at11_first m ρ c)
/-- At the end the result array holds the reference's last stage: the third layer's output after the rectifier, plus
    the first layer's output. -/
theorem at13_result : W13 m ρ c (Proc.devRef .tc main_v91) = val_main_v91 (F := Ideal) (a0 m c) (a1 m c) (a2 m c) (a3 m c) (a4 m c) (a5 m c) :=
  sum_out (W12 m ρ c) (a0 m c) (a1 m c) (a2 m c) (a3 m c) (a4 m c) (a5 m c) (at12_third m ρ c) (at12_first m ρ c)

end Cert.KernelIdeal.Hand

end
-- ==== Proof.lean ====
/-
  A three-layer graph convolution whose dense products run as row-tiled kernels, against the same network with host
  products: equal results over the extended reals.

  The network, on N = 100000 nodes and 1600000 edges with a self-loop appended for every node: the degree of a node is
  the number of edges that target it, the weight of an edge is deg(source)^(-1/2) * deg(target)^(-1/2) (zero where the
  degree is not positive), and a layer maps node features h to the sum, over the edges into each node, of the weighted
  row (h * W) at the edge's source, plus a bias. Three layers, a rectifier after the second and the third, and the first
  layer's output added to the last.

  The two programs apply the same host operations in the same order and differ only in the three products h * W. The
  reference takes each as one host product. The kernel program takes each as a grid of 20 points, point t multiplying
  rows 5000 t ... 5000 t + 4999 of h (narrowed to a 16-bit format, as is W) by the whole of W into a zero accumulator.
  Over the extended reals narrowing is the identity and adding into zero adds nothing, an entry of a product reads
  one row of h and one column of W, and the 20 row blocks tile the rows: so each region leaves the product of the
  arrays it read (TileProduct, Region0/1/2), which is the host's product of the same arrays. Everything around the
  products is then the same operations applied to equal arrays (ChainA, ChainB, ChainC). No law of the extended reals beyond the
  two sums being the same sum is used, so the finiteness of the inputs is never opened.

  The frames of the two kernel programs are the generated ones. The reference's frame and value are its generated run
  read back (RefRun, RefRead). The kernel program's run with its result named is NamedRun. The idealization rewrote no
  operation, so there is nothing to preserve.
-/
import proofs.«159414_j1254130450890_1_alg».proof.Defs
import proofs.«159414_j1254130450890_1_alg».proof.Proof.Gen.Kernel
import proofs.«159414_j1254130450890_1_alg».proof.Proof.Gen.Kernel.Skeleton
import proofs.«159414_j1254130450890_1_alg».proof.Proof.Gen.Kernel.Launch
import proofs.«159414_j1254130450890_1_alg».proof.Proof.Gen.Kernel.Points
import proofs.«159414_j1254130450890_1_alg».proof.Proof.Gen.Kernel.Frame
import proofs.«159414_j1254130450890_1_alg».proof.Proof.Gen.KernelIdeal
import proofs.«159414_j1254130450890_1_alg».proof.Proof.Gen.KernelIdeal.Skeleton
import proofs.«159414_j1254130450890_1_alg».proof.Proof.Gen.KernelIdeal.Launch
import proofs.«159414_j1254130450890_1_alg».proof.Proof.Gen.KernelIdeal.Points
import proofs.«159414_j1254130450890_1_alg».proof.Proof.Gen.KernelIdeal.Frame
import proofs.«159414_j1254130450890_1_alg».proof.Proof.Gen.ReferenceIdeal
import proofs.«159414_j1254130450890_1_alg».proof.Proof.Gen.Pre_finite_inputs
import proofs.«159414_j1254130450890_1_alg».proof.Proof.RefRun
import proofs.«159414_j1254130450890_1_alg».proof.Proof.RefRead
import proofs.«159414_j1254130450890_1_alg».proof.Proof.NamedRun
import proofs.«159414_j1254130450890_1_alg».proof.Proof.ChainC
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the reference's last stage of those
    arguments in the result array: the reference by its run read back, the kernel program by the walk through its
    segments. -/
theorem algebraic : Cert.algebraic_KernelIdeal_ReferenceIdeal := by
  intro m ρ m' ρ' _ hagree
  refine ⟨fun c => Cert.KernelIdeal.Gen.W13 m ρ c (Proc.devRef .tc Cert.KernelIdeal.main_v91),
    Cert.KernelIdeal.Hand.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v91_eq, (hagree c).1, (hagree c).2.1, (hagree c).2.2.1, (hagree c).2.2.2.1,
    (hagree c).2.2.2.2.1, (hagree c).2.2.2.2.2]
  exact (Cert.KernelIdeal.Hand.at13_result m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
